-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35)) (v1 : (c : Dev Cert.KernelIdeal.nD) → Buf (Elt Ideal) ((c.tc : Thread Cert.KernelIdeal.nD Cert.KernelIdeal.τ).loc Cert.KernelIdeal.main_v36)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v27) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v34) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x8 : Shape := ⟨2, ![1048576, 8]⟩
abbrev S4x64 : Shape := ⟨2, ![4, 64]⟩
abbrev S1 : Shape := ⟨1, ![1]⟩
abbrev S_ : Shape := ⟨0, ![]⟩

class Facts : Prop where
  bcast_S_S1048576x8 : S_.BroadcastsInDim S1048576x8 (![] : Fin 0 → Fin S1048576x8.rank)
  reducesTo_S1048576x8_S_d0_1 : S1048576x8.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S1048576x8 .f32) (main_arg1 : IVec S1048576x8 32) (main_arg2 : FVec F S4x64 .f32) (main_arg3 : FVec F S4x64 .f32) (main_arg4 : FVec F S1 .f32) : IVec S_ 1 :=
  let main_v0 : FVec F S1048576x8 .f32 := Host.absf main_arg0
  let main_cst : FVec F S_ .f32 := constant S_ .f32 0x7F800000#32
  let main_v1 : FVec F S1048576x8 .f32 := broadcastInDim S1048576x8 ![] bcast_S_S1048576x8 main_cst
  let main_v2 : IVec S1048576x8 1 := cmpf .olt main_v0 main_v1
  let main_c : IVec S_ 1 := constantI S_ 1 1#1
  let main_v3 : IVec S_ 1 := (fun x v => Host.reduce IntOp.andi x v reducesTo_S1048576x8_S_d0_1 h_S_) main_v2 main_c
  let main_v4 : FVec F S4x64 .f32 := Host.absf main_arg2
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S1048576x8 : Shape := ⟨2, ![1048576, 8]⟩
abbrev S4x64 : Shape := ⟨2, ![4, 64]⟩
abbrev S1 : Shape := ⟨1, ![1]⟩
abbrev S1048576x1x8 : Shape := ⟨3, ![1048576, 1, 8]⟩
abbrev S_ : Shape := ⟨0, ![]⟩
abbrev S4 : Shape := ⟨1, ![4]⟩
abbrev S4x1 : Shape := ⟨2, ![4, 1]⟩
abbrev S4x8 : Shape := ⟨2, ![4, 8]⟩
abbrev S8 : Shape := ⟨1, ![8]⟩
abbrev S1x8 : Shape := ⟨2, ![1, 8]⟩
abbrev S16x8 : Shape := ⟨2, ![16, 8]⟩
abbrev S128 : Shape := ⟨1, ![128]⟩
abbrev S1x128 : Shape := ⟨2, ![1, 128]⟩
abbrev S65536x128 : Shape := ⟨2, ![65536, 128]⟩
abbrev S8192x128 : Shape := ⟨2, ![8192, 128]⟩
abbrev S16384x128 : Shape := ⟨2, ![16384, 128]⟩
abbrev S2048x128 : Shape := ⟨2, ![2048, 128]⟩
abbrev S1048576x1 : Shape := ⟨2, ![1048576, 1]⟩

abbrev nBuf : Space → Nat
  | .hbm => 53
  | .vmem => 6
  | .smem => 0
  | _ => 0

abbrev bufTy : (tb : Table) → Fin (tcTables nBuf tb) → BufTy
  | .hbm, ⟨0, _⟩ => ⟨S1048576x8, .f32⟩
  | .hbm, ⟨1, _⟩ => ⟨S1048576x8, .i32⟩
  | .hbm, ⟨2, _⟩ => ⟨S4x64, .f32⟩
  | .hbm, ⟨3, _⟩ => ⟨S4x64, .f32⟩
  | .hbm, ⟨4, _⟩ => ⟨S1, .f32⟩
  | .hbm, ⟨5, _⟩ => ⟨S1048576x1x8, .f32⟩
  | .hbm, ⟨6, _⟩ => ⟨S4x64, .f32⟩
  | .hbm, ⟨7, _⟩ => ⟨S_, .f32⟩
  | .hbm, ⟨8, _⟩ => ⟨S4, .f32⟩
  | .hbm, ⟨9, _⟩ => ⟨S4x1, .f32⟩
  | .hbm, ⟨10, _⟩ => ⟨S4x8, .f32⟩
  | .hbm, ⟨11, _⟩ => ⟨S_, .f32⟩
  | .hbm, ⟨12, _⟩ => ⟨S4x8, .f32⟩
  | .hbm, ⟨13, _⟩ => ⟨S4x8, .f32⟩
  | .hbm, ⟨14, _⟩ => ⟨S_, .f32⟩
  | .hbm, ⟨15, _⟩ => ⟨S4, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S4x1, .f32⟩
  | .hbm, ⟨20, _⟩ => ⟨S4x8, .f32⟩
  | .hbm, ⟨21, _⟩ => ⟨S4x8, .f32⟩
  | .hbm, ⟨22, _⟩ => ⟨S4x8, .f32⟩
  | .hbm, ⟨23, _⟩ => ⟨S_, .f32⟩
  | .hbm, ⟨24, _⟩ => ⟨S4, .f32⟩
  | .hbm, ⟨25, _⟩ => ⟨S4x1, .f32⟩
  | .hbm, ⟨26, _⟩ => ⟨S4x8, .f32⟩
  | .hbm, ⟨27, _⟩ => ⟨S4x8, .f32⟩
  | .hbm, ⟨28, _⟩ => ⟨S_, .f32⟩
  | .hbm, ⟨29, _⟩ => ⟨S8, .f32⟩
  | .hbm, ⟨30, _⟩ => ⟨S4, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4x8, .f32⟩
  | .hbm, ⟨37, _⟩ => ⟨S4x8, .f32⟩
  | .hbm, ⟨38, _⟩ => ⟨S4x8, .f32⟩
  | .hbm, ⟨39, _⟩ => ⟨S4x8, .f32⟩
  | .hbm, ⟨40, _⟩ => ⟨S_, .f32⟩
  | .hbm, ⟨41, _⟩ => ⟨S4, .f32⟩
  | .hbm, ⟨42, _⟩ => ⟨S4, .f32⟩
  | .hbm, ⟨43, _⟩ => ⟨S1x8, .f32⟩
  | .hbm, ⟨44, _⟩ => ⟨S16x8, .f32⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S1x128, .f32⟩
  | .hbm, ⟨49, _⟩ => ⟨S65536x128, .f32⟩
  | .hbm, ⟨50, _⟩ => ⟨S8192x128, .f32⟩
  | .hbm, ⟨51, _⟩ => ⟨S1048576x8, .f32⟩
  | .hbm, ⟨52, _⟩ => ⟨S1048576x1, .f32⟩
  | .local _ .vmem, ⟨0, _⟩ => ⟨S1x128, .f32⟩
  | .local _ .vmem, ⟨1, _⟩ => ⟨S1x128, .f32⟩
  | .local _ .vmem, ⟨2, _⟩ => ⟨S16384x128, .f32⟩
  | .local _ .vmem, ⟨3, _⟩ => ⟨S16384x128, .f32⟩
  | .local _ .vmem, ⟨4, _⟩ => ⟨S2048x128, .f32⟩
  | .local _ .vmem, ⟨5, _⟩ => ⟨S2048x128, .f32⟩
  | _, _ => ⟨S1048576x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34_0 : Ref sig .tc := ⟨.hbm, 49, rfl⟩
abbrev main_v34_1 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1048576x8_S1048576x1x8 : S1048576x8.ShapeCasts S1048576x1x8
  reducesTo_S4x64_S4_d1 : S4x64.ReducesTo [1] S4
  h_S_ : 0 < S_.numel
  bcast_S4_S4x1_0 : S4.BroadcastsInDim S4x1 (![0] : Fin 1 → Fin S4x1.rank)
  bcast_S4x1_S4x8_0_1 : S4x1.BroadcastsInDim S4x8 (![0, 1] : Fin 2 → Fin S4x8.rank)
  bcast_S_S4x8 : S_.BroadcastsInDim S4x8 (![] : Fin 0 → Fin S4x8.rank)
  reducesTo_S4x8_S4_d1 : S4x8.ReducesTo [1] S4
  bcast_S_S4 : S_.BroadcastsInDim S4 (![] : Fin 0 → Fin S4.rank)
  reducesTo_S4x8_S8_d0 : S4x8.ReducesTo [0] S8
  reducesTo_S4_S_d0 : S4.ReducesTo [0] S_
  shapeCasts_S8_S1x8 : S8.ShapeCasts S1x8
  bcast_S1x8_S16x8_0_1 : S1x8.BroadcastsInDim S16x8 (![0, 1] : Fin 2 → Fin S16x8.rank)
  shapeCasts_S16x8_S128 : S16x8.ShapeCasts S128
  bcast_S1_S128_0 : S1.BroadcastsInDim S128 (![0] : Fin 1 → Fin S128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16384x128 : S1x128.Broadcasts S16384x128
  inb_S16384x128_S16384x128_0_0 : ∀ a, (![0, 0] : Fin 2 → Nat) a + S16384x128.size a ≤ S16384x128.size a
  h_S16384x128 : 0 < S16384x128.numel
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  shapeCasts_S65536x128_S1048576x8 : S65536x128.ShapeCasts S1048576x8
  shapeCasts_S8192x128_S1048576x1 : S8192x128.ShapeCasts S1048576x1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x128.size a ≤ S1x128.size a
  hwx0_0 : ∀ i : grid0.Coords, EltTy.bits .f32 = 32 ∨ (Rect.block (s := S1x128) S1x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x128.size a ≤ S65536x128.size a
  hwx0_2 : ∀ i : grid0.Coords, EltTy.bits .f32 = 32 ∨ (Rect.block (s := S65536x128) S16384x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S8192x128.size a
  hwx0_3 : ∀ i : grid0.Coords, EltTy.bits .f32 = 32 ∨ (Rect.block (s := S8192x128) S2048x128.size (cc0_transform_3 i) (hinb0_3 i)).WholeWords (EltTy.packing .f32)

variable [Facts₀]

abbrev win0_0 : Pipeline.Window sig grid0 :=
  Pipeline.Window.ofSpec (Memref.whole main_v32) S1x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v33) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34_0) S16384x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v34_1) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x8 : Shape := ⟨2, ![1048576, 8]⟩
abbrev S4x64 : Shape := ⟨2, ![4, 64]⟩
abbrev S1 : Shape := ⟨1, ![1]⟩
abbrev S1048576x1x8 : Shape := ⟨3, ![1048576, 1, 8]⟩
abbrev S_ : Shape := ⟨0, ![]⟩
abbrev S4 : Shape := ⟨1, ![4]⟩
abbrev S1x4x1 : Shape := ⟨3, ![1, 4, 1]⟩
abbrev S1048576x4x8 : Shape := ⟨3, ![1048576, 4, 8]⟩
abbrev S1048576x4 : Shape := ⟨2, ![1048576, 4]⟩
abbrev S1048576x4x1 : Shape := ⟨3, ![1048576, 4, 1]⟩
abbrev S1048576x1 : Shape := ⟨2, ![1048576, 1]⟩
abbrev S1x1 : Shape := ⟨2, ![1, 1]⟩

abbrev nBuf : Space → Nat
  | .hbm => 53
  | .vmem => 0
  | .smem => 0
  | _ => 0

abbrev bufTy : (tb : Table) → Fin (tcTables nBuf tb) → BufTy
  | .hbm, ⟨0, _⟩ => ⟨S1048576x8, .f32⟩
  | .hbm, ⟨1, _⟩ => ⟨S1048576x8, .i32⟩
  | .hbm, ⟨2, _⟩ => ⟨S4x64, .f32⟩
  | .hbm, ⟨3, _⟩ => ⟨S4x64, .f32⟩
  | .hbm, ⟨4, _⟩ => ⟨S1, .f32⟩
  | .hbm, ⟨5, _⟩ => ⟨S1048576x1x8, .f32⟩
  | .hbm, ⟨6, _⟩ => ⟨S4x64, .f32⟩
  | .hbm, ⟨7, _⟩ => ⟨S_, .f32⟩
  | .hbm, ⟨8, _⟩ => ⟨S4, .f32⟩
  | .hbm, ⟨9, _⟩ => ⟨S1x4x1, .f32⟩
  | .hbm, ⟨10, _⟩ => ⟨S1048576x4x8, .f32⟩
  | .hbm, ⟨11, _⟩ => ⟨S_, .f32⟩
  | .hbm, ⟨12, _⟩ => ⟨S1048576x4x8, .f32⟩
  | .hbm, ⟨13, _⟩ => ⟨S1048576x4x8, .f32⟩
  | .hbm, ⟨14, _⟩ => ⟨S_, .f32⟩
  | .hbm, ⟨15, _⟩ => ⟨S1048576x4, .f32⟩
  | .hbm, ⟨16, _⟩ => ⟨S_, .f32⟩
  | .hbm, ⟨17, _⟩ => ⟨S1048576x4, .f32⟩
  | .hbm, ⟨18, _⟩ => ⟨S1048576x4, .f32⟩
  | .hbm, ⟨19, _⟩ => ⟨S1048576x4x1, .f32⟩
  | .hbm, ⟨20, _⟩ => ⟨S1048576x4x8, .f32⟩
  | .hbm, ⟨21, _⟩ => ⟨S1048576x4x8, .f32⟩
  | .hbm, ⟨22, _⟩ => ⟨S1048576x4x8, .f32⟩
  | .hbm, ⟨23, _⟩ => ⟨S_, .f32⟩
  | .hbm, ⟨24, _⟩ => ⟨S1048576x4, .f32⟩
  | .hbm, ⟨25, _⟩ => ⟨S1048576x4x1, .f32⟩
  | .hbm, ⟨26, _⟩ => ⟨S1048576x4x8, .f32⟩
  | .hbm, ⟨27, _⟩ => ⟨S1048576x4x8, .f32⟩
  | .hbm, ⟨28, _⟩ => ⟨S_, .f32⟩
  | .hbm, ⟨29, _⟩ => ⟨S1048576x8, .f32⟩
  | .hbm, ⟨30, _⟩ => ⟨S_, .f32⟩
  | .hbm, ⟨31, _⟩ => ⟨S1048576x1, .f32⟩
  | .hbm, ⟨32, _⟩ => ⟨S1x1, .f32⟩
  | .hbm, ⟨33, _⟩ => ⟨S1048576x1, .f32⟩
  | .hbm, ⟨34, _⟩ => ⟨S1048576x1, .f32⟩
  | .hbm, ⟨35, _⟩ => ⟨S4, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1048576x4x8, .f32⟩
  | .hbm, ⟨42, _⟩ => ⟨S1048576x4x8, .f32⟩
  | .hbm, ⟨43, _⟩ => ⟨S1048576x4x8, .f32⟩
  | .hbm, ⟨44, _⟩ => ⟨S1048576x4x8, .f32⟩
  | .hbm, ⟨45, _⟩ => ⟨S_, .f32⟩
  | .hbm, ⟨46, _⟩ => ⟨S1048576x4, .f32⟩
  | .hbm, ⟨47, _⟩ => ⟨S_, .f32⟩
  | .hbm, ⟨48, _⟩ => ⟨S4, .f32⟩
  | .hbm, ⟨49, _⟩ => ⟨S_, .f32⟩
  | .hbm, ⟨50, _⟩ => ⟨S4, .f32⟩
  | .hbm, ⟨51, _⟩ => ⟨S4, .f32⟩
  | .hbm, ⟨52, _⟩ => ⟨S4, .f32⟩
  | _, _ => ⟨S1048576x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_cst_11 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]

class Facts₀ : Prop where
  shapeCasts_S1048576x8_S1048576x1x8 : S1048576x8.ShapeCasts S1048576x1x8
  reducesTo_S4x64_S4_d1 : S4x64.ReducesTo [1] S4
  h_S_ : 0 < S_.numel
  bcast_S4_S1x4x1_1 : S4.BroadcastsInDim S1x4x1 (![1] : Fin 1 → Fin S1x4x1.rank)
  bcast_S1x4x1_S1048576x4x8_0_1_2 : S1x4x1.BroadcastsInDim S1048576x4x8 (![0, 1, 2] : Fin 3 → Fin S1048576x4x8.rank)
  bcast_S_S1048576x4x8 : S_.BroadcastsInDim S1048576x4x8 (![] : Fin 0 → Fin S1048576x4x8.rank)
  reducesTo_S1048576x4x8_S1048576x4_d2 : S1048576x4x8.ReducesTo [2] S1048576x4
  bcast_S_S1048576x4 : S_.BroadcastsInDim S1048576x4 (![] : Fin 0 → Fin S1048576x4.rank)
  bcast_S1048576x4_S1048576x4x1_0_1 : S1048576x4.BroadcastsInDim S1048576x4x1 (![0, 1] : Fin 2 → Fin S1048576x4x1.rank)
  bcast_S1048576x4x1_S1048576x4x8_0_1_2 : S1048576x4x1.BroadcastsInDim S1048576x4x8 (![0, 1, 2] : Fin 3 → Fin S1048576x4x8.rank)
  reducesTo_S1048576x4x8_S1048576x8_d1 : S1048576x4x8.ReducesTo [1] S1048576x8
  bcast_S_S1048576x1 : S_.BroadcastsInDim S1048576x1 (![] : Fin 0 → Fin S1048576x1.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  reducesTo_S4_S_d0 : S4.ReducesTo [0] S_
  reducesTo_S1048576x4_S4_d0 : S1048576x4.ReducesTo [0] S4
  bcast_S_S4 : S_.BroadcastsInDim S4 (![] : Fin 0 → Fin S4.rank)

variable [Facts₀]

class Facts : Prop extends Facts₀ where

variable [Facts]
-- ==== Proof.Spec.lean ====
/-
  The quantities both programs compute, as scalar functions of the vector of the four heads' logits.

  Every head `h` has ONE logit `L h` (the dot product of the head's selector and key rows), shared by all eight
  agents and all batch rows. Scaled by 1/8 it is the score of every agent, so along the agent axis the soft-max is
  taken of eight equal scores: the row's maximum, the exponential of score minus maximum, the sum of the eight
  exponentials and the quotient are functions of `h` alone. The attention weight of an agent is the sum of the four
  heads' quotients, the same for every agent and every batch row; a head's entropy is minus the sum over the eight
  agents of `log (p + 1e-8) · p`.  Each quantity is written with the operations of the ideal instance exactly as the
  programs apply them (nothing is simplified: the equal scores are not cancelled, the maximum is not evaluated), so
  that each program's array entry IS the corresponding quantity, by reading the program alone.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The four heads' logits. -/
abbrev Logits : Type := (⟨1, ![4]⟩ : Shape).Idx → Ideal .f32

/-- A head's score: its logit times 1/8 (the pattern `0x3E000000`). -/
def scaled (L : Logits) (h : Fin 4) : Ideal .f32 :=
  FloatOps.mulf (L (ix1 h)) (FloatOps.ofBits (F := Ideal) .f32 0x3E000000#32)

/-- The maximum over the eight agents of the head's score, taken from `-∞` (the pattern `0xFF800000`), and once more
    against `-∞`. -/
def rowMax (L : Logits) (h : Fin 4) : Ideal .f32 :=
  FloatOps.maximumf (FloatOps.ofBits (F := Ideal) .f32 0xFF800000#32)
    ((Finset.univ : Finset (Fin 8)).fold (FloatOps.maximumf (F := Ideal) (φ := .f32))
      (FloatOps.ofBits (F := Ideal) .f32 0xFF800000#32) (fun _ => scaled L h))

/-- The exponential of score minus maximum. -/
def expo (L : Logits) (h : Fin 4) : Ideal .f32 :=
  FloatOps.hostUnary (F := Ideal) .exp (FloatOps.subf (scaled L h) (rowMax L h))

/-- The sum over the eight agents of that exponential, from zero. -/
def denom (L : Logits) (h : Fin 4) : Ideal .f32 :=
  FloatOps.ofBits (F := Ideal) .f32 0x00000000#32 + ∑ _k : Fin 8, expo L h

/-- The soft-max weight of any agent under head `h`. -/
def prob (L : Logits) (h : Fin 4) : Ideal .f32 :=
  FloatOps.hostDivf (F := Ideal) (expo L h) (denom L h)

/-- The attention weight of any agent: the four heads' weights added, from zero. -/
def attend (L : Logits) : Ideal .f32 :=
  FloatOps.ofBits (F := Ideal) .f32 0x00000000#32 + ∑ h : Fin 4, prob L h

/-- The sum over the eight agents of `log (p + 1e-8) · p` (1e-8 as the pattern `0x322BCC77`), from zero. -/
def entRow (L : Logits) (h : Fin 4) : Ideal .f32 :=
  FloatOps.ofBits (F := Ideal) .f32 0x00000000#32
    + ∑ _k : Fin 8, FloatOps.mulf (FloatOps.hostUnary (F := Ideal) .log
        (FloatOps.addf (prob L h) (FloatOps.ofBits (F := Ideal) .f32 0x322BCC77#32))) (prob L h)

/-- A head's entropy. -/
def entropy (L : Logits) (h : Fin 4) : Ideal .f32 :=
  FloatOps.hostNegf (F := Ideal) (entRow L h)

/-- The pattern `0x49800000` denotes 2^20 = 1048576, the number of batch rows. -/
theorem ofBits_batch : Ideal.ofBits .f32 0x49800000#32 = ((1048576 : ℝ) : EReal) := by
  simp [Ideal.ofBits, Ideal.ieee, -EReal.coe_mul]; norm_num

end Cert.Spec

end
-- ==== Proof.LibMeanConst.lean ====
/-
  The mean of `n` equal terms on the extended reals.

  Adding `n > 0` copies of an extended real `c` to zero and multiplying by the real `1/n` gives `c` back:
  for a real `c` this is `(n·c)/n = c`; for `c = ±∞` the sum is `±∞` already (n ≥ 1) and a positive real
  factor leaves an infinity where it is. No finiteness is asked of `c`.
-/
import Mathlib

namespace Cert.LibMeanConst

open scoped BigOperators

/-- `n ≥ 1` copies of `-∞` add up to `-∞`. -/
theorem succ_nsmul_bot (k : ℕ) : (k + 1) • (⊥ : EReal) = ⊥ := by
  rw [succ_nsmul]; exact EReal.add_bot _

/-- `n ≥ 1` copies of `+∞` add up to `+∞`. -/
theorem succ_nsmul_top (k : ℕ) : (k + 1) • (⊤ : EReal) = ⊤ := by
  induction k with
  | zero => simp
  | succ k ih => rw [succ_nsmul, ih]; exact EReal.top_add_top

/-- The sum over `Fin n` of the constant `c`, started from zero and scaled by the real `1/y` where `y` is `n` as a
    real, is `c`. (`y` is a separate variable so that a numeral met in a program need not be recast.) -/
theorem zero_add_sum_const_mul_inv (n : ℕ) (hn : 0 < n) (y : ℝ) (hy : (n : ℝ) = y) (c : EReal) :
    (0 + ∑ _k : Fin n, c) * (((1 : ℝ) / y : ℝ) : EReal) = c := by
  subst hy
  rw [zero_add, Finset.sum_const, Finset.card_univ, Fintype.card_fin]
  obtain ⟨k, rfl⟩ : ∃ k, n = k + 1 := ⟨n - 1, by omega⟩
  have hpos : (0 : ℝ) < 1 / ((k + 1 : ℕ) : ℝ) := by positivity
  induction c using EReal.rec with
  | bot => rw [succ_nsmul_bot]; exact EReal.bot_mul_coe_of_pos hpos
  | coe r =>
    rw [← EReal.coe_nsmul, ← EReal.coe_mul]
    congr 1
    rw [nsmul_eq_mul]
    field_simp
  | top => rw [succ_nsmul_top]; exact EReal.top_mul_coe_of_pos hpos

end Cert.LibMeanConst
-- ==== Proof.LibConstLayout.lean ====
/-
  Re-indexing operations applied to an array all of whose entries are one value.

  A shape cast, a broadcast along named axes and a broadcast to trailing axes each read their operand at an
  index computed from the result index. So when every entry of the operand is the value `c`, every entry of
  the result is `c` as well, whatever the two shapes and whatever the index arithmetic between them: no
  row-major position has to be computed. Also: the shape [1] has exactly one index.
-/
import Idealize.ShloMosaic.PureOps.ShapeOps
import Idealize.ShloMosaic.Lib.ValueIdx

namespace Cert.LibConstLayout

open Idealize.ShloMosaic Idealize.ShloMosaic.ValueIdx

variable {s t : Shape} {α : Type}

/-- A shape cast of an array whose entries all equal `c` has every entry equal to `c`. -/
theorem shapeCast_const (x : s.Idx → α) (c : α) (hx : ∀ k, x k = c) (h : s.ShapeCasts t) (j : t.Idx) :
    shapeCast t x h j = c := by
  unfold shapeCast; exact hx _

/-- A broadcast along named axes of an array whose entries all equal `c` has every entry equal to `c`. -/
theorem broadcastInDim_const (dims : Fin s.rank → Fin t.rank) (h : s.BroadcastsInDim t dims) (x : s.Idx → α) (c : α)
    (hx : ∀ k, x k = c) (j : t.Idx) : broadcastInDim t dims h x j = c := by
  unfold broadcastInDim; exact hx _

/-- A broadcast to trailing axes of an array whose entries all equal `c` has every entry equal to `c`. -/
theorem broadcastTo_const (x : s.Idx → α) (c : α) (hx : ∀ k, x k = c) (h : s.Broadcasts t) (j : t.Idx) :
    broadcastTo t x h j = c := by
  unfold broadcastTo; exact hx _

/-- The shape [1] has one index. -/
theorem idx_one_eq (k : (⟨1, ![1]⟩ : Shape).Idx) : k = ix1 (0 : Fin 1) := by
  funext d
  match d with
  | ⟨0, _⟩ => exact Subsingleton.elim (α := Fin 1) _ _

end Cert.LibConstLayout
-- ==== Proof.RefRead.lean ====
/-
  The reference program's four results, entry by entry, as the quantities of Spec.lean.

  The reference carries every intermediate array at the batch size: scores, maxima, exponentials and quotients are
  arrays over (row, head, agent), but each entry depends on the head alone. Reading one operation at a time at an
  index (the generated stage lemmas; the row maximum, a fold over the agent axis, is read here by hand) gives:
  the weight array's entry at (row, agent) is `attend L`; the value array's entry is the value parameter times
  one; the regulariser is left as the program's own term; and the entropy array's entry at head `h` is minus the
  mean over the 1048576 rows of one and the same number `entRow L h`, which is that number.
-/
import proofs.«156362_j17454747091732_2_alg».proof.Proof.Gen.ReferenceIdeal.Read
import proofs.«156362_j17454747091732_2_alg».proof.Proof.Spec
import proofs.«156362_j17454747091732_2_alg».proof.Proof.LibMeanConst
import proofs.«156362_j17454747091732_2_alg».proof.Proof.LibConstLayout
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
open Cert.Spec
open scoped BigOperators

variable (x2 x3 : (⟨S4x64, .f32⟩ : BufTy).Contents (Elt Ideal))

/-- The logits as the reference computes them: row sums of the elementwise product of selectors and keys. -/
abbrev L : Logits := val_main_v2 (F := Ideal) x2 x3

/-- The score array's entry at (row, head, agent) is the head's score. -/
theorem scaled_eq (i : S1048576x4x8.Idx) : val_main_v6 (F := Ideal) x2 x3 i = scaled (L x2 x3) (i 1) := by
  rw [val_main_v6_apply, val_main_v4_apply, val_main_v3_apply, val_main_v5_apply, val_main_cst_0_apply]
  rw [show idx_main_v3 (idx_main_v4 i) = ix1 (i 1) from funext fun a => Fin.ext (by match a with | ⟨0, _⟩ => rfl)]
  rfl

/-- The maximum array's entry at (row, head): the fold over the agent axis meets eight equal scores. -/
theorem rowMax_eq (j : S1048576x4.Idx) : val_main_v9 (F := Ideal) x2 x3 j = rowMax (L x2 x3) (j 1) := by
  rw [val_main_v9_apply, val_main_v8_apply, val_main_cst_2_apply]
  unfold val_main_v7
  rw [Host.reduce_eq_fold_single (FloatOps.maximumf (F := Ideal) (φ := .f32)) _ _ reducesTo_S1048576x4x8_S1048576x4_d2 (by decide) h_S_ j]
  have hf : (val_main_v6 (F := Ideal) x2 x3 ∘ (Shape.Reduces.lift (by decide : S1048576x4x8.Reduces [2] S1048576x4) j))
      = fun _ => scaled (L x2 x3) (j 1) := funext fun k => by
    rw [Function.comp_apply, scaled_eq]; rfl
  rw [hf]
  rfl

/-- The exponential array's entry. -/
theorem expo_eq (i : S1048576x4x8.Idx) : val_main_v13 (F := Ideal) x2 x3 i = expo (L x2 x3) (i 1) := by
  rw [val_main_v13_apply, val_main_v12_apply, scaled_eq, val_main_v11_apply, val_main_v10_apply, rowMax_eq]
  rfl

/-- The normaliser array's entry at (row, head). -/
theorem denom_eq (j : S1048576x4.Idx) : val_main_v14 (F := Ideal) x2 x3 j = denom (L x2 x3) (j 1) := by
  rw [val_main_v14_apply]
  simp only [expo_eq]
  rfl

/-- The soft-max array's entry. -/
theorem prob_eq (i : S1048576x4x8.Idx) : val_main_v17 (F := Ideal) x2 x3 i = prob (L x2 x3) (i 1) := by
  rw [val_main_v17_apply, expo_eq, val_main_v16_apply, val_main_v15_apply, denom_eq]
  rfl

/-- RESULT 0, the attention weights: every entry is `attend L`. -/
theorem attend_eq (i : S1048576x8.Idx) : val_main_v18 (F := Ideal) x2 x3 i = attend (L x2 x3) := by
  rw [val_main_v18_apply]
  simp only [prob_eq]
  rfl

/-- The per-row entropy sums' entry at (row, head). -/
theorem entRow_eq (j : S1048576x4.Idx) : val_main_v30 (F := Ideal) x2 x3 j = entRow (L x2 x3) (j 1) := by
  rw [val_main_v30_apply]
  unfold entRow
  refine congrArg₂ (· + ·) rfl (Finset.sum_congr rfl fun k _ => ?_)
  rw [val_main_v29_apply, val_main_v28_apply, val_main_v27_apply, prob_eq, val_main_v26_apply, val_main_cst_8_apply]
  rfl

/-- RESULT 3, the entropies: minus the mean over the rows of ONE number is minus that number. -/
theorem entropy_eq (j : S4.Idx) : val_main_v34 (F := Ideal) x2 x3 j = entropy (L x2 x3) (j 0) := by
  rw [val_main_v34_apply, val_main_v33_apply, val_main_v31_apply, val_main_v32_apply, val_main_cst_11_apply]
  have hs : (∑ k : Fin 1048576, val_main_v30 (F := Ideal) x2 x3 (idx_main_v31 j k))
      = ∑ _k : Fin 1048576, entRow (L x2 x3) (j 0) :=
    Finset.sum_congr rfl fun k _ => entRow_eq x2 x3 (idx_main_v31 j k)
  rw [hs]
  unfold entropy
  refine congrArg (FloatOps.hostNegf (F := Ideal)) ?_
  show Ideal.div (Ideal.ofBits .f32 0x00000000#32 + ∑ _k : Fin 1048576, entRow (L x2 x3) (j 0))
    (Ideal.ofBits .f32 0x49800000#32) = entRow (L x2 x3) (j 0)
  rw [ofBits_batch, Ideal.ofBits_zero_f32, Ideal.div_coe (by norm_num)]
  exact Cert.LibMeanConst.zero_add_sum_const_mul_inv 1048576 (by norm_num) 1048576 (by norm_num) _

/-- RESULT 1, the values: the value parameter's one entry, times one. -/
theorem value_eq (x4 : (⟨S1, .f32⟩ : BufTy).Contents (Elt Ideal)) (i : S1048576x1.Idx) :
    val_main_v22 (F := Ideal) x4 i = x4 (ix1 (0 : Fin 1)) := by
  rw [val_main_v22_apply, val_main_v21_apply, val_main_v20_apply, val_main_v19_apply, val_main_cst_5_apply]
  show x4 _ * Ideal.ofBits .f32 0x3F800000#32 = _
  rw [Ideal.ofBits_one_f32, mul_one]
  exact congrArg x4 (Cert.LibConstLayout.idx_one_eq _)

end Cert.ReferenceIdeal.RefValue

end
-- ==== Proof.KernelBlocks.lean ====
/-
  What the kernel's two output arrays hold after the run.

  The kernel's grid has four points. At each point the body loads the two [1,128] rows staged for it (the same
  row at every point: both input windows sit at block (0,0)), broadcasts each down the rows of its output block —
  [16384,128] for the first output, [2048,128] for the second — and stores the block whole; point `t` writes block
  `t` of the output array back. A block's entry at (r, l) is the row's entry at lane `l`, so the block is the
  restriction of ONE array: the row repeated down all 65536 (8192) rows. The four blocks tile the array (row `r`
  is in block `r / 16384`, resp. `r / 2048`), hence each output array ends as its row repeated down every row.
-/
import proofs.«156362_j17454747091732_2_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat Cfg Window)

variable {F : FTy → Type} [FloatOps F]
variable (m : (ℓ : Loc nD τ sig) → Buf (Elt F) ℓ)

theorem zero_offsets : (![0, 0] : Fin 2 → Nat) = fun _ => 0 := funext fun a => by fin_cases a <;> rfl

/-- A [1,128] row repeated down the 65536 rows of the first output array. -/
abbrev rows65536 (row : S1x128.Idx → Elt F .f32) : S65536x128.Idx → Elt F .f32 := fun i => row (ix2 (0 : Fin 1) (i 1))

/-- A [1,128] row repeated down the 8192 rows of the second output array. -/
abbrev rows8192 (row : S1x128.Idx → Elt F .f32) : S8192x128.Idx → Elt F .f32 := fun i => row (ix2 (0 : Fin 1) (i 1))

/-- The first store's value at (r, l) is the loaded row at lane l: two identity casts, then the broadcast down the rows. -/
theorem pay1_apply (x : Vec F S1x128 .f32) (j : S16384x128.Idx) : k0_pay1 x j = x (ix2 (0 : Fin 1) (j 1)) := by
  unfold k0_pay1
  show broadcastTo S16384x128 (shapeCast S1x128 (shapeCast S1x128 x shapeCasts_S1x128_S1x128) shapeCasts_S1x128_S1x128)
    broadcasts_S1x128_S16384x128 j = _
  rw [shapeCast_self, shapeCast_self]
  exact broadcastTo_apply x broadcasts_S1x128_S16384x128 j (ix2 (0 : Fin 1) (j 1)) (fun a => match a with
    | ⟨0, _⟩ => by show (0 : Nat) = if (1 : Nat) = 1 then 0 else _; rw [if_pos rfl]
    | ⟨1, _⟩ => by show (j 1).val = if (128 : Nat) = 1 then 0 else _; rw [if_neg (by decide)]; rfl)

/-- The second store's value at (r, l) likewise. -/
theorem pay2_apply (x : Vec F S1x128 .f32) (j : S2048x128.Idx) : k0_pay2 x j = x (ix2 (0 : Fin 1) (j 1)) := by
  unfold k0_pay2
  show broadcastTo S2048x128 (shapeCast S1x128 (shapeCast S1x128 x shapeCasts_S1x128_S1x128) shapeCasts_S1x128_S1x128)
    broadcasts_S1x128_S2048x128 j = _
  rw [shapeCast_self, shapeCast_self]
  exact broadcastTo_apply x broadcasts_S1x128_S2048x128 j (ix2 (0 : Fin 1) (j 1)) (fun a => match a with
    | ⟨0, _⟩ => by show (0 : Nat) = if (1 : Nat) = 1 then 0 else _; rw [if_pos rfl]
    | ⟨1, _⟩ => by show (j 1).val = if (128 : Nat) = 1 then 0 else _; rw [if_neg (by decide)]; rfl)

/-- The index maps over the four grid points: both inputs stay at block (0,0); output blocks are (t, 0). -/
theorem block_indices : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (1 : Fin 2) = 0 ∧ win0_3.index t (1 : Fin 2) = 0 :=
  (by decide +kernel : ∀ t : Fin grid0.N, _)

/-- Every row block of the first output is some point's. -/
theorem block_onto2 : ∀ q : Fin 4, ∃ t : Fin cfg0.N, win0_2.index t = ![q.val, 0] :=
  (by decide +kernel : ∀ q : Fin 4, ∃ t : Fin grid0.N, win0_2.index t = ![q.val, 0])

/-- Every row block of the second output is some point's. -/
theorem block_onto3 : ∀ q : Fin 4, ∃ t : Fin cfg0.N, win0_3.index t = ![q.val, 0] :=
  (by decide +kernel : ∀ q : Fin 4, ∃ t : Fin grid0.N, win0_3.index t = ![q.val, 0])

/-! ## The first output array -/

/-- What point `t` writes back is block `t` of the staged row repeated down the rows. -/
theorem flushed2_eq (c : Dev nD) (t : Fin cfg0.N) :
    (dats m 0 c).flushed 2 t = ((cfg0.win 2).blk t).view.read (Elt F) (rows65536 (V m c main_v32)) := by
  show (cfg0.win 2).cut (grid0.coords t) ((dats m 0 c).after 2 t) = _
  rw [after0_2]
  unfold out0_2
  rw [View.canon_unit_zero zero_offsets]
  simp only [View.ld_unit_zero (S := S1x128) zero_offsets]
  obtain ⟨e0, e1, e2, e3, e4, e5⟩ := block_indices t
  funext j
  show k0_pay1 (iblk m c 0 t) j = V m c main_v32 (ix2 (0 : Fin 1) ((((cfg0.win 2).blk t).view.emb j) 1))
  refine (pay1_apply (iblk m c 0 t) j).trans ?_
  show V m c main_v32 (((cfg0.win 0).blk t).view.emb (ix2 (0 : Fin 1) (j 1))) = _
  refine congrArg (V m c main_v32) (funext fun a => Fin.ext ?_)
  match a with
  | ⟨0, _⟩ => show win0_0.index t (0 : Fin 2) * 1 + 1 * 0 = 0; omega
  | ⟨1, _⟩ =>
    show win0_0.index t (1 : Fin 2) * 128 + 1 * (j 1).val = win0_2.index t (1 : Fin 2) * 128 + 1 * (j 1).val
    omega

/-- An index of the first output array is in point `t`'s block iff each coordinate is in the block's range. -/
theorem mem_blk2 (t : Fin cfg0.N) (i : S65536x128.Idx) :
    i ∈ ((cfg0.win 2).blk t).view.set ↔ ∀ a : Fin 2, win0_2.index t a * S16384x128.size a ≤ (i a).val
      ∧ (i a).val < win0_2.index t a * S16384x128.size a + S16384x128.size a := by
  show i ∈ ((View.whole main_v34_0).slice (win0_2.rect t)).set ↔ _
  rw [View.set_slice_whole, Rect.mem_set_unit]
  exact Iff.rfl

/-- Row `r` lies in block `r / 16384`. -/
theorem cover2 (i : S65536x128.Idx) :
    ∃ t : Fin cfg0.N, (cfg0.win 2).flush t = true ∧ i ∈ ((cfg0.win 2).blk t).view.set := by
  have hi0 : (i 0).val < 65536 := (i 0).isLt
  have hi1 : (i 1).val < 128 := (i 1).isLt
  obtain ⟨t, ht⟩ := block_onto2 ⟨(i 0).val / 16384, by omega⟩
  have q0 : win0_2.index t (0 : Fin 2) = (i 0).val / 16384 := congrFun ht 0
  have q1 : win0_2.index t (1 : Fin 2) = 0 := congrFun ht 1
  refine ⟨t, flush0_2 t, ?_⟩
  rw [mem_blk2]
  intro a
  match a with
  | ⟨0, _⟩ =>
    show win0_2.index t (0 : Fin 2) * 16384 ≤ (i 0).val ∧ (i 0).val < win0_2.index t (0 : Fin 2) * 16384 + 16384
    omega
  | ⟨1, _⟩ =>
    show win0_2.index t (1 : Fin 2) * 128 ≤ (i 1).val ∧ (i 1).val < win0_2.index t (1 : Fin 2) * 128 + 128
    omega

/-- The first output array after the run: the staged row down every row. -/
theorem final2 (c : Dev nD) : (dats m 0 c).arrAt 2 cfg0.N = rows65536 (V m c main_v32) :=
  (dats m 0 c).arrAt_eq_of_cover 2 (rows65536 (V m c main_v32)) (fun t _ => flushed2_eq m c t) cover2

/-! ## The second output array -/

/-- What point `t` writes back is block `t` of the second staged row repeated down the rows. -/
theorem flushed3_eq (c : Dev nD) (t : Fin cfg0.N) :
    (dats m 0 c).flushed 3 t = ((cfg0.win 3).blk t).view.read (Elt F) (rows8192 (V m c main_v33)) := by
  show (cfg0.win 3).cut (grid0.coords t) ((dats m 0 c).after 3 t) = _
  rw [after0_3]
  unfold out0_3
  rw [View.canon_unit_zero zero_offsets]
  simp only [View.ld_unit_zero (S := S1x128) zero_offsets]
  obtain ⟨e0, e1, e2, e3, e4, e5⟩ := block_indices t
  funext j
  show k0_pay2 (iblk m c 1 t) j = V m c main_v33 (ix2 (0 : Fin 1) ((((cfg0.win 3).blk t).view.emb j) 1))
  refine (pay2_apply (iblk m c 1 t) j).trans ?_
  show V m c main_v33 (((cfg0.win 1).blk t).view.emb (ix2 (0 : Fin 1) (j 1))) = _
  refine congrArg (V m c main_v33) (funext fun a => Fin.ext ?_)
  match a with
  | ⟨0, _⟩ => show win0_1.index t (0 : Fin 2) * 1 + 1 * 0 = 0; omega
  | ⟨1, _⟩ =>
    show win0_1.index t (1 : Fin 2) * 128 + 1 * (j 1).val = win0_3.index t (1 : Fin 2) * 128 + 1 * (j 1).val
    omega

/-- An index of the second output array is in point `t`'s block iff each coordinate is in the block's range. -/
theorem mem_blk3 (t : Fin cfg0.N) (i : S8192x128.Idx) :
    i ∈ ((cfg0.win 3).blk t).view.set ↔ ∀ a : Fin 2, win0_3.index t a * S2048x128.size a ≤ (i a).val
      ∧ (i a).val < win0_3.index t a * S2048x128.size a + S2048x128.size a := by
  show i ∈ ((View.whole main_v34_1).slice (win0_3.rect t)).set ↔ _
  rw [View.set_slice_whole, Rect.mem_set_unit]
  exact Iff.rfl

/-- Row `r` lies in block `r / 2048`. -/
theorem cover3 (i : S8192x128.Idx) :
    ∃ t : Fin cfg0.N, (cfg0.win 3).flush t = true ∧ i ∈ ((cfg0.win 3).blk t).view.set := by
  have hi0 : (i 0).val < 8192 := (i 0).isLt
  have hi1 : (i 1).val < 128 := (i 1).isLt
  obtain ⟨t, ht⟩ := block_onto3 ⟨(i 0).val / 2048, by omega⟩
  have q0 : win0_3.index t (0 : Fin 2) = (i 0).val / 2048 := congrFun ht 0
  have q1 : win0_3.index t (1 : Fin 2) = 0 := congrFun ht 1
  refine ⟨t, flush0_3 t, ?_⟩
  rw [mem_blk3]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 128 ≤ (i 1).val ∧ (i 1).val < win0_3.index t (1 : Fin 2) * 128 + 128
    omega

/-- The second output array after the run: the second staged row down every row. -/
theorem final3 (c : Dev nD) : (dats m 0 c).arrAt 3 cfg0.N = rows8192 (V m c main_v33) :=
  (dats m 0 c).arrAt_eq_of_cover 3 (rows8192 (V m c main_v33)) (fun t _ => flushed3_eq m c t) cover3

end Cert.KernelIdeal.Blocks

end
-- ==== Proof.KernelHost.lean ====
/-
  The kernel program's host operations before the launch, entry by entry, as the quantities of Spec.lean.

  Before it launches the broadcast kernel, the program computes on small arrays what the reference computes at the
  batch size: the four logits, the [4,8] scores (a column broadcast across the eight agents, times 1/8), the row
  maxima, exponentials, row sums and quotients, the eight column sums of the quotients (the attention weights of
  the eight agents), the regulariser and the four entropies. It then lays the eight weights out sixteen times along
  128 lanes as a [1,128] row, and the value parameter 128 times as another [1,128] row.
  Here each stage is a definition (the program's operations, composed), and each stage's entry is read off:
  the quotient at (h, a) is `prob L h`; every one of the eight column sums is `attend L`, so every lane of the first row
  is `attend L` whatever the tiling; every lane of the second row is the value parameter's one entry; the entropy at
  `h` is `entropy L h`.
-/
import proofs.«156362_j17454747091732_2_alg».proof.Proof.Gen.KernelIdeal
import proofs.«156362_j17454747091732_2_alg».proof.Proof.Spec
import proofs.«156362_j17454747091732_2_alg».proof.Proof.LibConstLayout
import Idealize.ShloMosaic.Lib.Pipeline.Value
import Idealize.ShloMosaic.Lib.IdealHost
import Idealize.ShloMosaic.PureOps.Ideal.Laws

noncomputable section

namespace Cert.KernelIdeal.Prefix

open Cert.KernelIdeal Cert.KernelIdeal.Gen Idealize.ShloMosaic Idealize.ShloMosaic.ValueIdx
open Cert.Spec Cert.LibConstLayout
open scoped BigOperators

/-! ## The stages, at any float instance -/

section Stages

variable {F : FTy → Type} [FloatOps F]

/-- The four logits: row sums of the elementwise product of selectors and keys. -/
def logits (x2 x3 : (⟨S4x64, .f32⟩ : BufTy).Contents (Elt F)) : (⟨S4, .f32⟩ : BufTy).Contents (Elt F) :=
  Host.reduceAdd (mulf x2 x3) (constant S_ .f32 0x00000000#32) reducesTo_S4x64_S4_d1 h_S_

/-- A column of four numbers across eight columns. -/
def across (z : (⟨S4, .f32⟩ : BufTy).Contents (Elt F)) : (⟨S4x8, .f32⟩ : BufTy).Contents (Elt F) :=
  broadcastInDim S4x8 ![0, 1] bcast_S4x1_S4x8_0_1 (broadcastInDim S4x1 ![0] bcast_S4_S4x1_0 z)

/-- The scores: each head's logit across the agents, times 1/8. -/
def scores (L : (⟨S4, .f32⟩ : BufTy).Contents (Elt F)) : (⟨S4x8, .f32⟩ : BufTy).Contents (Elt F) :=
  mulf (across L) (broadcastInDim S4x8 ![] bcast_S_S4x8 (constant S_ .f32 0x3E000000#32))

/-- The row maxima. -/
def maxima (L : (⟨S4, .f32⟩ : BufTy).Contents (Elt F)) : (⟨S4, .f32⟩ : BufTy).Contents (Elt F) :=
  maximumf (broadcastInDim S4 ![] bcast_S_S4 (constant S_ .f32 0xFF800000#32))
    (Host.reduce FloatOps.maximumf (scores L) (constant S_ .f32 0xFF800000#32) reducesTo_S4x8_S4_d1 h_S_)

/-- The exponentials of score minus row maximum. -/
def exps (L : (⟨S4, .f32⟩ : BufTy).Contents (Elt F)) : (⟨S4x8, .f32⟩ : BufTy).Contents (Elt F) :=
  Host.exp (subf (scores L) (across (maxima L)))

/-- The row sums of the exponentials. -/
def sums (L : (⟨S4, .f32⟩ : BufTy).Contents (Elt F)) : (⟨S4, .f32⟩ : BufTy).Contents (Elt F) :=
  Host.reduceAdd (exps L) (constant S_ .f32 0x00000000#32) reducesTo_S4x8_S4_d1 h_S_

/-- The soft-max weights. -/
def probs (L : (⟨S4, .f32⟩ : BufTy).Contents (Elt F)) : (⟨S4x8, .f32⟩ : BufTy).Contents (Elt F) :=
  Host.divf (exps L) (across (sums L))

/-- The eight agents' attention weights: column sums of the soft-max weights. -/
def weights (L : (⟨S4, .f32⟩ : BufTy).Contents (Elt F)) : (⟨S8, .f32⟩ : BufTy).Contents (Elt F) :=
  Host.reduceAdd (probs L) (constant S_ .f32 0x00000000#32) reducesTo_S4x8_S8_d0 h_S_

/-- The regulariser: 0.001 times the sum of the squared logits. -/
def regulariser (L : (⟨S4, .f32⟩ : BufTy).Contents (Elt F)) : (⟨S_, .f32⟩ : BufTy).Contents (Elt F) :=
  mulf (constant S_ .f32 0x3A83126F#32) (Host.reduceAdd (mulf L L) (constant S_ .f32 0x00000000#32) reducesTo_S4_S_d0 h_S_)

/-- The four entropies. -/
def entropies (L : (⟨S4, .f32⟩ : BufTy).Contents (Elt F)) : (⟨S4, .f32⟩ : BufTy).Contents (Elt F) :=
  Host.negf (Host.reduceAdd
    (mulf (Host.log (addf (probs L) (broadcastInDim S4x8 ![] bcast_S_S4x8 (constant S_ .f32 0x322BCC77#32)))) (probs L))
    (constant S_ .f32 0x00000000#32) reducesTo_S4x8_S4_d1 h_S_)

/-- The eight weights sixteen times along 128 lanes, as a [1,128] row. -/
def weightRow (L : (⟨S4, .f32⟩ : BufTy).Contents (Elt F)) : (⟨S1x128, .f32⟩ : BufTy).Contents (Elt F) :=
  shapeCast S1x128 (shapeCast S128 (broadcastInDim S16x8 ![0, 1] bcast_S1x8_S16x8_0_1
    (shapeCast S1x8 (weights L) shapeCasts_S8_S1x8)) shapeCasts_S16x8_S128) shapeCasts_S128_S1x128

/-- The value parameter 128 times, as a [1,128] row. -/
def valueRow (x4 : (⟨S1, .f32⟩ : BufTy).Contents (Elt F)) : (⟨S1x128, .f32⟩ : BufTy).Contents (Elt F) :=
  shapeCast S1x128 (broadcastInDim S128 ![0] bcast_S1_S128_0 x4) shapeCasts_S128_S1x128

/-- Every lane of the value row is the value parameter's one entry. -/
theorem valueRow_apply (x4 : (⟨S1, .f32⟩ : BufTy).Contents (Elt F)) (j : S1x128.Idx) :
    valueRow x4 j = x4 (ix1 (0 : Fin 1)) := by
  unfold valueRow
  have h0 : ∀ k, x4 k = x4 (ix1 (0 : Fin 1)) := fun k => congrArg x4 (idx_one_eq k)
  have h1 : ∀ k, broadcastInDim S128 ![0] bcast_S1_S128_0 x4 k = x4 (ix1 (0 : Fin 1)) :=
    fun k => broadcastInDim_const _ bcast_S1_S128_0 x4 _ h0 k
  exact shapeCast_const _ _ h1 shapeCasts_S128_S1x128 j

/-- A column across eight columns, at (p, q), is the column's entry at p. -/
theorem across_apply (z : (⟨S4, .f32⟩ : BufTy).Contents (Elt F)) (p : Fin 4) (q : Fin 8) :
    across z (ix2 p q) = z (ix1 p) := by
  unfold across
  rw [broadcastInDim_apply _ bcast_S4x1_S4x8_0_1 _ (ix2 p q) (ix2 p (0 : Fin 1)) (fun a => match a with
      | ⟨0, _⟩ => by show p.val = if (4 : Nat) = 1 then 0 else p.val; rw [if_neg (by decide)]
      | ⟨1, _⟩ => by show (0 : Nat) = if (1 : Nat) = 1 then 0 else q.val; rw [if_pos rfl]),
    broadcastInDim_apply _ bcast_S4_S4x1_0 z (ix2 p (0 : Fin 1)) (ix1 p) (fun a => match a with
      | ⟨0, _⟩ => by show p.val = if (4 : Nat) = 1 then 0 else p.val; rw [if_neg (by decide)])]

end Stages

/-! ## The stages' entries at the ideal instance -/

/-- The index over head `p` with agent `k` inserted on the agent axis. -/
theorem lift_agent (h : S4x8.Reduces [1] S4) (p : Fin 4) (k : Fin 8) : h.lift (ix1 p) k = ix2 p k :=
  funext fun a => Fin.ext (by match a with | ⟨0, _⟩ => rfl | ⟨1, _⟩ => rfl)

/-- The index over agent `q` with head `k` inserted on the head axis. -/
theorem lift_head (h : S4x8.Reduces [0] S8) (q : Fin 8) (k : Fin 4) : h.lift (ix1 q) k = ix2 k q :=
  funext fun a => Fin.ext (by match a with | ⟨0, _⟩ => rfl | ⟨1, _⟩ => rfl)

variable (L : (⟨S4, .f32⟩ : BufTy).Contents (Elt Ideal))

theorem scores_apply (p : Fin 4) (q : Fin 8) : scores L (ix2 p q) = scaled L p := by
  unfold scores scaled
  show FloatOps.mulf (across L (ix2 p q)) (broadcastInDim S4x8 ![] bcast_S_S4x8 (constant (F := Ideal) S_ .f32 0x3E000000#32) (ix2 p q)) = _
  rw [across_apply, broadcastInDim_scalar_apply]
  rfl

theorem maxima_apply (p : Fin 4) : maxima L (ix1 p) = rowMax L p := by
  unfold maxima rowMax
  show FloatOps.maximumf (broadcastInDim S4 ![] bcast_S_S4 (constant (F := Ideal) S_ .f32 0xFF800000#32) (ix1 p))
    (Host.reduce FloatOps.maximumf (scores L) (constant (F := Ideal) S_ .f32 0xFF800000#32) reducesTo_S4x8_S4_d1 h_S_ (ix1 p)) = _
  rw [broadcastInDim_scalar_apply,
    Host.reduce_eq_fold_single (FloatOps.maximumf (F := Ideal) (φ := .f32)) (scores L) _ reducesTo_S4x8_S4_d1 (by decide) h_S_ (ix1 p)]
  have hf : (scores L ∘ (Shape.Reduces.lift (by decide : S4x8.Reduces [1] S4) (ix1 p))) = fun _ => scaled L p :=
    funext fun k => by
      rw [Function.comp_apply]; exact (congrArg (scores L) (lift_agent _ p k)).trans (scores_apply L p k)
  rw [hf]
  rfl

theorem exps_apply (p : Fin 4) (q : Fin 8) : exps L (ix2 p q) = expo L p := by
  unfold exps expo
  show FloatOps.hostUnary (F := Ideal) .exp (FloatOps.subf (scores L (ix2 p q)) (across (maxima L) (ix2 p q))) = _
  rw [scores_apply, across_apply, maxima_apply]

theorem sums_apply (p : Fin 4) : sums L (ix1 p) = denom L p := by
  unfold sums denom
  rw [hostReduceAdd_apply, Ideal.hostReduceAdd_single reducesTo_S4x8_S4_d1 (by decide)]
  refine congrArg₂ (· + ·) rfl (Finset.sum_congr rfl fun k _ => ?_)
  exact (congrArg (exps L) (lift_agent _ p k)).trans (exps_apply L p k)

theorem probs_apply (p : Fin 4) (q : Fin 8) : probs L (ix2 p q) = prob L p := by
  unfold probs prob
  show FloatOps.hostDivf (F := Ideal) (exps L (ix2 p q)) (across (sums L) (ix2 p q)) = _
  rw [exps_apply, across_apply, sums_apply]

/-- The column sum over agent `q` adds the four heads' weights. -/
theorem weights_at (q : Fin 8) : weights L (ix1 q) = attend L := by
  unfold weights attend
  rw [hostReduceAdd_apply, Ideal.hostReduceAdd_single reducesTo_S4x8_S8_d0 (by decide)]
  refine congrArg₂ (· + ·) rfl (Finset.sum_congr rfl fun k _ => ?_)
  exact (congrArg (probs L) (lift_head _ q k)).trans (probs_apply L k q)

/-- Each of the eight column sums is `attend L`. -/
theorem weights_apply (j : S8.Idx) : weights L j = attend L :=
  (congrArg (weights L) (eq_ix1 j)).trans (weights_at L (j 0))

/-- So every lane of the weight row is `attend L`: the re-layouts only move equal numbers about. -/
theorem weightRow_apply (j : S1x128.Idx) : weightRow L j = attend L := by
  unfold weightRow
  have h1 : ∀ k, shapeCast S1x8 (weights L) shapeCasts_S8_S1x8 k = attend L :=
    fun k => shapeCast_const _ _ (weights_apply L) shapeCasts_S8_S1x8 k
  have h2 : ∀ k, broadcastInDim S16x8 ![0, 1] bcast_S1x8_S16x8_0_1 (shapeCast S1x8 (weights L) shapeCasts_S8_S1x8) k = attend L :=
    fun k => broadcastInDim_const _ bcast_S1x8_S16x8_0_1 _ _ h1 k
  have h3 : ∀ k, shapeCast S128 (broadcastInDim S16x8 ![0, 1] bcast_S1x8_S16x8_0_1
      (shapeCast S1x8 (weights L) shapeCasts_S8_S1x8)) shapeCasts_S16x8_S128 k = attend L :=
    fun k => shapeCast_const _ _ h2 shapeCasts_S16x8_S128 k
  exact shapeCast_const _ _ h3 shapeCasts_S128_S1x128 j

theorem entropies_at (p : Fin 4) : entropies L (ix1 p) = entropy L p := by
  unfold entropies entropy entRow
  show FloatOps.hostNegf (F := Ideal) (Host.reduceAdd
    (mulf (Host.log (addf (probs L) (broadcastInDim S4x8 ![] bcast_S_S4x8 (constant (F := Ideal) S_ .f32 0x322BCC77#32)))) (probs L))
    (constant (F := Ideal) S_ .f32 0x00000000#32) reducesTo_S4x8_S4_d1 h_S_ (ix1 p)) = _
  rw [hostReduceAdd_apply, Ideal.hostReduceAdd_single reducesTo_S4x8_S4_d1 (by decide)]
  refine congrArg (FloatOps.hostNegf (F := Ideal)) (congrArg₂ (· + ·) rfl (Finset.sum_congr rfl fun (k : Fin 8) _ => ?_))
  refine (congrArg (mulf (Host.log (addf (probs L) (broadcastInDim S4x8 ![] bcast_S_S4x8 (constant (F := Ideal) S_ .f32 0x322BCC77#32)))) (probs L))
    (lift_agent _ p k)).trans ?_
  show FloatOps.mulf (FloatOps.hostUnary (F := Ideal) .log (FloatOps.addf (probs L (ix2 p k))
    (broadcastInDim S4x8 ![] bcast_S_S4x8 (constant (F := Ideal) S_ .f32 0x322BCC77#32) (ix2 p k)))) (probs L (ix2 p k)) = _
  rw [probs_apply, broadcastInDim_scalar_apply]
  rfl

theorem entropies_apply (j : S4.Idx) : entropies L j = entropy L (j 0) :=
  (congrArg (entropies L) (eq_ix1 j)).trans (entropies_at L (j 0))

end Cert.KernelIdeal.Prefix

end
-- ==== Proof.KernelRun.lean ====
/-
  The kernel program's run, with its four results as the quantities of Spec.lean.

  The launch leaves the first output array as the weight row down 65536 rows and the second as the value row down
  8192 rows (KernelBlocks.lean); after the launch the program reshapes them to [1048576, 8] and [1048576, 1]. Every
  lane of the weight row is `attend L` and every lane of the value row is the value parameter's entry
  (KernelHost.lean), so both arrays are constant and a reshape of a constant array is that constant: no index of
  the reshapes is computed. The regulariser and the entropies were computed before the launch, are no array of the
  launch and are written by nothing after it: they end as computed.
-/
import proofs.«156362_j17454747091732_2_alg».proof.Proof.Gen.KernelIdeal.Frame
import proofs.«156362_j17454747091732_2_alg».proof.Proof.KernelBlocks
import proofs.«156362_j17454747091732_2_alg».proof.Proof.KernelHost
import Idealize.ShloMosaic.Lib.StableHlo.Run

set_option maxRecDepth 16384

noncomputable section

namespace Cert.KernelIdeal.RunValue

open Cert.KernelIdeal Cert.KernelIdeal.Gen Idealize.ShloMosaic Idealize.ShloMosaic.TcCoe Idealize.SL.Sem Idealize.ShloMosaic.StableHlo
open Idealize.ShloMosaic.ValueIdx Cert.Spec Cert.LibConstLayout Cert.KernelIdeal.Prefix Cert.KernelIdeal.Blocks

section AnyInstance

variable {F : FTy → Type} [FloatOps F]
variable (m : (ℓ : Loc nD τ sig) → Buf (Elt F) ℓ) (ρ : Dev nD → PrngReg)

/-- The logits of the launch contents of the selector and key arrays. -/
abbrev LL (c : Dev nD) : (⟨S4, .f32⟩ : BufTy).Contents (Elt F) :=
  logits (m ((c : Thread nD τ).loc main_arg2)) (m ((c : Thread nD τ).loc main_arg3))

/-! ## What the host operations before the launch leave -/

/-- The first staged row is the weight row. -/
theorem V_weightRow (c : Dev nD) : V m c main_v32 = weightRow (LL m c) := by
  show StableHlo.after hostOps0 (fun b => m (c, b)) (Proc.devRef .tc main_v32) = _
  after_results_simp
  rfl

/-- The second staged row is the value row. -/
theorem V_valueRow (c : Dev nD) : V m c main_v33 = valueRow (m ((c : Thread nD τ).loc main_arg4)) := by
  show StableHlo.after hostOps0 (fun b => m (c, b)) (Proc.devRef .tc main_v33) = _
  after_results_simp
  rfl

/-- The regulariser as computed before the launch. -/
theorem V_regulariser (c : Dev nD) : V m c main_v21 = regulariser (LL m c) := by
  show StableHlo.after hostOps0 (fun b => m (c, b)) (Proc.devRef .tc main_v21) = _
  after_results_simp
  rfl

/-- The entropies as computed before the launch. -/
theorem V_entropies (c : Dev nD) : V m c main_v27 = entropies (LL m c) := by
  show StableHlo.after hostOps0 (fun b => m (c, b)) (Proc.devRef .tc main_v27) = _
  after_results_simp
  rfl

/-! ## What the program ends with -/

/-- RESULT 0: the reshape of the first output array. -/
theorem out_v35 (c : Dev nD) : Pipeline.afterTail₀ cfgs (dats m) 0 (V0 m) [hostOps1] c main_v35
    = shapeCast S1048576x8 (rows65536 (weightRow (LL m c))) shapeCasts_S65536x128_S1048576x8 := by
  unfold Pipeline.afterTail₀
  show StableHlo.after hostOps1 _ (Proc.devRef .tc main_v35) = _
  after_results
  have e : Pipeline.withArrays (cfgs 0).spec c (V0 m c) (fun w => (dats m 0 c).arrAt w (cfgs 0).N) (Proc.devRef .tc main_v34_0)
      = rows65536 (weightRow (LL m c)) :=
    ((Pipeline.withArrays_arr spec0 launch0.win.arr_inj c _ _ 2).trans (final2 m c)).trans (congrArg rows65536 (V_weightRow m c))
  rw [e]
  rfl

/-- RESULT 1: the reshape of the second output array. -/
theorem out_v36 (c : Dev nD) : Pipeline.afterTail₀ cfgs (dats m) 0 (V0 m) [hostOps1] c main_v36
    = shapeCast S1048576x1 (rows8192 (valueRow (m ((c : Thread nD τ).loc main_arg4)))) shapeCasts_S8192x128_S1048576x1 := by
  unfold Pipeline.afterTail₀
  show StableHlo.after hostOps1 _ (Proc.devRef .tc main_v36) = _
  after_results
  have e : Pipeline.withArrays (cfgs 0).spec c (V0 m c) (fun w => (dats m 0 c).arrAt w (cfgs 0).N) (Proc.devRef .tc main_v34_1)
      = rows8192 (valueRow (m ((c : Thread nD τ).loc main_arg4))) :=
    ((Pipeline.withArrays_arr spec0 launch0.win.arr_inj c _ _ 3).trans (final3 m c)).trans (congrArg rows8192 (V_valueRow m c))
  rw [e]
  rfl

/-- RESULT 2: the regulariser, untouched by the launch and by the reshapes after it. -/
theorem out_v21 (c : Dev nD) : Pipeline.afterTail₀ cfgs (dats m) 0 (V0 m) [hostOps1] c main_v21 = regulariser (LL m c) := by
  unfold Pipeline.afterTail₀
  show StableHlo.after hostOps1 _ (Proc.devRef .tc main_v21) = _
  after_results
  rw [Pipeline.withArrays_of_ne _ c (V0 m c) _ main_v21 (by exact (by decide : ∀ w, Pipeline.arrRef spec0 w ≠ main_v21))]
  exact V_regulariser m c

/-- RESULT 3: the entropies, untouched likewise. -/
theorem out_v27 (c : Dev nD) : Pipeline.afterTail₀ cfgs (dats m) 0 (V0 m) [hostOps1] c main_v27 = entropies (LL m c) := by
  unfold Pipeline.afterTail₀
  show StableHlo.after hostOps1 _ (Proc.devRef .tc main_v27) = _
  after_results
  rw [Pipeline.withArrays_of_ne _ c (V0 m c) _ main_v27 (by exact (by decide : ∀ w, Pipeline.arrRef spec0 w ≠ main_v27))]
  exact V_entropies m c

end AnyInstance

/-! ## The run at the ideal instance -/

variable (m : (ℓ : Loc nD τ sig) → Buf (Elt Ideal) ℓ) (ρ : Dev nD → PrngReg)

/-- Every entry of the reshaped first output is `attend L`. -/
theorem v35_entries (c : Dev nD) :
    shapeCast S1048576x8 (rows65536 (weightRow (LL m c))) shapeCasts_S65536x128_S1048576x8
      = fun _ : S1048576x8.Idx => attend (LL m c) :=
  funext fun i => shapeCast_const _ _ (fun k => weightRow_apply (LL m c) _) shapeCasts_S65536x128_S1048576x8 i

/-- Every entry of the reshaped second output is the value parameter's entry. -/
theorem v36_entries (c : Dev nD) :
    shapeCast S1048576x1 (rows8192 (valueRow (m ((c : Thread nD τ).loc main_arg4)))) shapeCasts_S8192x128_S1048576x1
      = fun _ : S1048576x1.Idx => m ((c : Thread nD τ).loc main_arg4) (ix1 (0 : Fin 1)) :=
  funext fun i => shapeCast_const _ _ (fun k => valueRow_apply (m ((c : Thread nD τ).loc main_arg4)) _) shapeCasts_S8192x128_S1048576x1 i

/-- Every weakly fair execution of the kernel program terminates with the attention weights all `attend L`, the values all
    the value parameter's entry, the regulariser the program's own term of the logits and the entropies `entropy L h`, the
    five argument arrays as launched. -/
theorem run : θ_run defs (onTc (τ := τ) (main (F := Ideal))) ⟨m, fun _ => 0, ρ⟩ fun r => ∀ c : Dev nD,
      r.2.mem ((c : Thread nD τ).loc main_v35) = (fun _ : S1048576x8.Idx => attend (LL m c))
      ∧ r.2.mem ((c : Thread nD τ).loc main_v36) = (fun _ : S1048576x1.Idx => m ((c : Thread nD τ).loc main_arg4) (ix1 (0 : Fin 1)))
      ∧ r.2.mem ((c : Thread nD τ).loc main_v21) = regulariser (LL m c)
      ∧ r.2.mem ((c : Thread nD τ).loc main_v27) = (fun j : S4.Idx => entropy (LL m c) (j 0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v35 (Pipeline.mem_restRefs_of main_v35 (by decide) (by decide))).trans ((out_v35 m c).trans (v35_entries m c)),
     ((h c).2 main_v36 (Pipeline.mem_restRefs_of main_v36 (by decide) (by decide))).trans ((out_v36 m c).trans (v36_entries m c)),
     ((h c).2 main_v21 (Pipeline.mem_restRefs_of main_v21 (by decide) (by decide))).trans (out_v21 m c),
     ((h c).2 main_v27 (Pipeline.mem_restRefs_of main_v27 (by decide) (by decide))).trans
       ((out_v27 m c).trans (funext fun j => entropies_apply (LL m c) j)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.RunValue

end
-- ==== Proof.lean ====
/-
  The certificate: a soft-max attention weighting whose logits do not depend on the batch.

  Both programs take selectors and keys [4,64], a value parameter [1] and two batch-sized arrays they never read.
  Head `h`'s logit is the dot product of row `h` of the selectors and the keys; the same logit serves all eight agents
  and all 1048576 batch rows. The reference broadcasts the logits to (row, head, agent), takes the soft-max along the
  agents there, adds over the heads, and averages the per-row entropies over the rows. The kernel program does the
  same arithmetic once, on [4,8] arrays, lays the eight weights along 128 lanes, and launches a kernel that only
  copies that [1,128] row down the rows of a [65536,128] array (and the value parameter down [8192,128]), reshaped
  afterwards to [1048576,8] and [1048576,1].

  At the ideal instance the two agree entry by entry, and for every input: the soft-max weight at (row, head, agent)
  and at (head, agent) is one and the same expression of the head's logit (Spec.lean; nothing is simplified, so no
  finiteness is used); every attention weight is the sum of the four heads' weights; the value array is the parameter
  (times one, in the reference); the regulariser is the same term in both; and the mean over 1048576 rows of one
  number is that number on the extended reals, infinite or not (LibMeanConst.lean). The precondition is not used.
-/
import proofs.«156362_j17454747091732_2_alg».proof.Defs
import proofs.«156362_j17454747091732_2_alg».proof.Proof.Gen.Kernel
import proofs.«156362_j17454747091732_2_alg».proof.Proof.Gen.Kernel.Skeleton
import proofs.«156362_j17454747091732_2_alg».proof.Proof.Gen.Kernel.Launch
import proofs.«156362_j17454747091732_2_alg».proof.Proof.Gen.Kernel.Points
import proofs.«156362_j17454747091732_2_alg».proof.Proof.Gen.Kernel.Frame
import proofs.«156362_j17454747091732_2_alg».proof.Proof.Gen.KernelIdeal
import proofs.«156362_j17454747091732_2_alg».proof.Proof.Gen.KernelIdeal.Skeleton
import proofs.«156362_j17454747091732_2_alg».proof.Proof.Gen.KernelIdeal.Launch
import proofs.«156362_j17454747091732_2_alg».proof.Proof.Gen.KernelIdeal.Points
import proofs.«156362_j17454747091732_2_alg».proof.Proof.Gen.KernelIdeal.Frame
import proofs.«156362_j17454747091732_2_alg».proof.Proof.Gen.ReferenceIdeal
import proofs.«156362_j17454747091732_2_alg».proof.Proof.Gen.Pre_finite_inputs
import proofs.«156362_j17454747091732_2_alg».proof.Proof.Gen.ReferenceIdeal.Run
import proofs.«156362_j17454747091732_2_alg».proof.Proof.Gen.ReferenceIdeal.Read
import proofs.«156362_j17454747091732_2_alg».proof.Proof.RefRead
import proofs.«156362_j17454747091732_2_alg».proof.Proof.KernelRun
import Idealize.ShloMosaic.Adequacy
import Idealize.ShloMosaic.Init

noncomputable section

namespace Cert.Proof

open Idealize.ShloMosaic Idealize.ShloMosaic.TcCoe Idealize.SL.Sem
open Idealize.ShloMosaic.ValueIdx Cert.Spec

/-- The kernel program as printed runs, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the four results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- The two idealized programs, from memories that agree on the arguments, end with equal results: both programs'
    logits are one term of the selector and key arrays, and each result is the same quantity of that term. -/
theorem algebraic : Cert.algebraic_KernelIdeal_ReferenceIdeal := by
  intro m ρ m' ρ' _ hagree
  refine ⟨fun c => fun _ => attend (Cert.KernelIdeal.RunValue.LL m c),
    fun c => fun _ => m ((c : Thread Cert.KernelIdeal.nD Cert.KernelIdeal.τ).loc Cert.KernelIdeal.main_arg4) (ix1 (0 : Fin 1)),
    fun c => Cert.KernelIdeal.Prefix.regulariser (Cert.KernelIdeal.RunValue.LL m c),
    fun c => fun j => entropy (Cert.KernelIdeal.RunValue.LL m c) (j 0),
    Cert.KernelIdeal.RunValue.run m ρ, ?_⟩
  refine (θ_run Cert.ReferenceIdeal.defs _ _).mono (fun r h c => ?_) (Cert.ReferenceIdeal.Value.run (F := Ideal) m' ρ')
  obtain ⟨h0, h1, h2, h3, hargs⟩ := h c
  obtain ⟨a0, a1, a2, a3, a4⟩ := hagree c
  refine ⟨?_, ?_, ?_, ?_, hargs⟩
  · rw [h0, Cert.ReferenceIdeal.Read.val_main_v18_eq, a2, a3]
    exact funext fun i => Cert.ReferenceIdeal.RefValue.attend_eq _ _ i
  · rw [h1, Cert.ReferenceIdeal.Read.val_main_v22_eq, a4]
    exact funext fun i => Cert.ReferenceIdeal.RefValue.value_eq _ i
  · rw [h2, a2, a3]
    rfl
  · rw [h3, Cert.ReferenceIdeal.Read.val_main_v34_eq, a2, a3]
    exact funext fun j => Cert.ReferenceIdeal.RefValue.entropy_eq _ _ j

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
